-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg8 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg5 : FVec F S768x768 .f32) (main_arg6 : FVec F S768 .f32) (main_arg7 : FVec F S768x768 .f32) (main_arg8 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg7
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg8 main_v33

def fn {F : FTy → Type} [FloatOps F] (main_arg0 : FVec F S8x2048x768 .f32) (main_arg1 : FVec F S8x2048x768 .f32) (main_arg2 : IVec S8x2048x2048 1) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_arg7 main_arg8 main_v13 main_v16
-- ==== Kernel.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S1x768 : Shape := ⟨2, ![1, 768]⟩
abbrev S1x256x768 : Shape := ⟨3, ![1, 256, 768]⟩
abbrev S1x2048x768 : Shape := ⟨3, ![1, 2048, 768]⟩
abbrev S1x256x2048 : Shape := ⟨3, ![1, 256, 2048]⟩
abbrev S2048x768 : Shape := ⟨2, ![2048, 768]⟩
abbrev S256x768 : Shape := ⟨2, ![256, 768]⟩
abbrev S256x2048 : Shape := ⟨2, ![256, 2048]⟩

abbrev nBuf : Space → Nat
  | .hbm => 20
  | .vmem => 16
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x2048, .i1⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S768x768, .f32⟩
  | .hbm, ⟨14, _⟩ => ⟨S768x768, .bf16⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S8x2048x2048, .i32⟩
  | .hbm, ⟨19, _⟩ => ⟨S8x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x2048x768, .f32⟩
  | .local _ .vmem, ⟨3, _⟩ => ⟨S1x2048x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S1x256x2048, .i32⟩
  | .local _ .vmem, ⟨11, _⟩ => ⟨S1x256x2048, .i32⟩
  | .local _ .vmem, ⟨12, _⟩ => ⟨S1x256x768, .f32⟩
  | .local _ .vmem, ⟨13, _⟩ => ⟨S1x256x768, .f32⟩
  | .local _ .vmem, ⟨14, _⟩ => ⟨S2048x768, .bf16⟩
  | .local _ .vmem, ⟨15, _⟩ => ⟨S2048x768, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_29 : BitVec 32 := 0#32
  let c256_i32 : BitVec 32 := 256#32
  let v36 : BitVec 32 := Scalar.muli c0_i32_29 c256_i32
  v36
def k0_off1 (c0_i32_29 : BitVec 32) : Fin 3 → Nat :=
  let c0_30 : Index := 0#32
  let c256_i32 : BitVec 32 := 256#32
  let v36 : BitVec 32 := Scalar.muli c0_i32_29 c256_i32
  let v37 : BitVec 32 := v36
  let v38 : Index := Scalar.indexCast v37
  let c0_31 : Index := 0#32
  ![0, v38.toNat, 0]
def k0_off2 (c0_i32_29 : BitVec 32) : Fin 2 → Nat :=
  let c256_i32 : BitVec 32 := 256#32
  let v36 : BitVec 32 := Scalar.muli c0_i32_29 c256_i32
  let v37 : BitVec 32 := v36
  let v46 : Index := Scalar.indexCast v37
  let c0_33 : Index := 0#32
  ![v46.toNat, 0]
def k0_mult2 : BitVec 32 :=
  let c1_i32 : BitVec 32 := 1#32
  let c256_i32_36 : BitVec 32 := 256#32
  let v58 : BitVec 32 := Scalar.muli c1_i32 c256_i32_36
  v58
def k0_mult3 : BitVec 32 :=
  let c2_i32 : BitVec 32 := 2#32
  let c256_i32_43 : BitVec 32 := 256#32
  let v80 : BitVec 32 := Scalar.muli c2_i32 c256_i32_43
  v80
def k0_mult4 : BitVec 32 :=
  let c3_i32 : BitVec 32 := 3#32
  let c256_i32_50 : BitVec 32 := 256#32
  let v102 : BitVec 32 := Scalar.muli c3_i32 c256_i32_50
  v102
def k0_mult5 : BitVec 32 :=
  let c4_i32 : BitVec 32 := 4#32
  let c256_i32_57 : BitVec 32 := 256#32
  let v124 : BitVec 32 := Scalar.muli c4_i32 c256_i32_57
  v124
def k0_mult6 : BitVec 32 :=
  let c5_i32 : BitVec 32 := 5#32
  let c256_i32_64 : BitVec 32 := 256#32
  let v146 : BitVec 32 := Scalar.muli c5_i32 c256_i32_64
  v146
def k0_mult7 : BitVec 32 :=
  let c6_i32 : BitVec 32 := 6#32
  let c256_i32_71 : BitVec 32 := 256#32
  let v168 : BitVec 32 := Scalar.muli c6_i32 c256_i32_71
  v168
def k0_mult8 : BitVec 32 :=
  let c7_i32 : BitVec 32 := 7#32
  let c256_i32_78 : BitVec 32 := 256#32
  let v190 : BitVec 32 := Scalar.muli c7_i32 c256_i32_78
  v190
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S768x768_S768x768_1_0 : S768x768.Transposes [1, 0] S768x768
  bitsLt_bf16_f32 : FTy.bits .bf16 < FTy.bits .f32
  shapeCasts_S768_S1x768 : S768.ShapeCasts S1x768
  natLt_1_32 : 1 < 32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  h_S1x256x768 : 0 < S1x256x768.numel
  shapeCasts_S1x256x768_S256x768 : S1x256x768.ShapeCasts S256x768
  broadcasts_S1x768_S256x768 : S1x768.Broadcasts S256x768
  h_S256x768 : 0 < S256x768.numel
  shapeCasts_S256x768_S256x768 : S256x768.ShapeCasts S256x768
  inb_S1x256x768_S1x256x768_0_0_0 : ∀ a, (![0, 0, 0] : Fin 3 → Nat) a + S1x256x768.size a ≤ S1x256x768.size a
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x768_S2048x768_0_0 : ∀ a, (![0, 0] : Fin 2 → Nat) a + S2048x768.size a ≤ S2048x768.size a
  h_S2048x768 : 0 < S2048x768.numel
  shapeCasts_S256x768_S1x256x768 : S256x768.ShapeCasts S1x256x768
  dot_S256x768_S768x768_S256x768_1_0_0_1_n_n_wf : DotDims.WF S256x768 S768x768 S256x768 [1] [0] [0] [1] [] []
  dot_S256x768_S2048x768_S256x2048_1_1_0_0_n_n_wf : DotDims.WF S256x768 S2048x768 S256x2048 [1] [1] [0] [0] [] []
  dot_S256x2048_S2048x768_S256x768_1_0_0_1_n_n_wf : DotDims.WF S256x2048 S2048x768 S256x768 [1] [0] [0] [1] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 8), ∀ a, (k0_off1 (BitVec.ofNat 32 r.val)) a + S1x256x768.size a ≤ S1x2048x768.size a
  k0_off2_inb : ∀ i : grid0.Coords, ∀ (k0_h1 : k0_cond1 i = 1#1), ∀ (r : Fin 8), ∀ a, (k0_off2 (BitVec.ofNat 32 r.val)) a + S256x768.size a ≤ S2048x768.size a
  k0_off2_packedbf16 : ∀ i : grid0.Coords, ∀ (k0_h1 : k0_cond1 i = 1#1), ∀ (r : Fin 8), (Rect.unit (s := S2048x768) (k0_off2 (BitVec.ofNat 32 r.val)) S256x768.size (k0_off2_inb i k0_h1 r)).PackedRows (EltTy.packing .bf16)
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  k0_mult5_dvd : ∀ i : grid0.Coords, ∀ (k0_h1 : k0_cond1 i = 1#1), 256 ∣ k0_mult5.toNat
  k0_mult6_dvd : ∀ i : grid0.Coords, ∀ (k0_h1 : k0_cond1 i = 1#1), 256 ∣ k0_mult6.toNat
  k0_mult7_dvd : ∀ i : grid0.Coords, ∀ (k0_h1 : k0_cond1 i = 1#1), 256 ∣ k0_mult7.toNat
  k0_mult8_dvd : ∀ i : grid0.Coords, ∀ (k0_h1 : k0_cond1 i = 1#1), 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x2048x768.size a
  hwx0_0 : ∀ i : grid0.Coords, EltTy.bits .f32 = 32 ∨ (Rect.block (s := S8x2048x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x2048x768.size a
  hwx0_1 : ∀ i : grid0.Coords, EltTy.bits .f32 = 32 ∨ (Rect.block (s := S8x2048x768) S1x2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S8x2048x2048.size a
  hwx0_8 : ∀ i : grid0.Coords, EltTy.bits .i32 = 32 ∨ (Rect.block (s := S8x2048x2048) S1x256x2048.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x768.size a ≤ S8x2048x768.size a
  hwx0_9 : ∀ i : grid0.Coords, EltTy.bits .f32 = 32 ∨ (Rect.block (s := S8x2048x768) S1x256x768.size (cc0_transform_9 i) (hinb0_9 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x256x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S1x1x768 : Shape := ⟨3, ![1, 1, 768]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x2048, .i1⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S8x2048x768, .f32⟩
  | .hbm, ⟨10, _⟩ => ⟨S1x1x768, .f32⟩
  | .hbm, ⟨11, _⟩ => ⟨S8x2048x768, .f32⟩
  | .hbm, ⟨12, _⟩ => ⟨S8x2048x768, .f32⟩
  | .hbm, ⟨13, _⟩ => ⟨S8x2048x768, .f32⟩
  | .hbm, ⟨14, _⟩ => ⟨S1x1x768, .f32⟩
  | .hbm, ⟨15, _⟩ => ⟨S8x2048x768, .f32⟩
  | .hbm, ⟨16, _⟩ => ⟨S8x2048x768, .f32⟩
  | .hbm, ⟨17, _⟩ => ⟨S8x2048x768, .f32⟩
  | .hbm, ⟨18, _⟩ => ⟨S1x1x768, .f32⟩
  | .hbm, ⟨19, _⟩ => ⟨S8x2048x768, .f32⟩
  | .hbm, ⟨20, _⟩ => ⟨S8x2048x768, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S_S8x2048x2048 : S_.BroadcastsInDim S8x2048x2048 (![] : Fin 0 → Fin S8x2048x2048.rank)
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.Ops.lean ====
/-
  The kernel body's arithmetic, at the extended reals, index by index.

  One linear layer on a block of 256 rows is `layer y W β`: the product of the rows `y` with the
  (already transposed) weight `W`, plus the bias row `β` broadcast down the rows; a change of float
  format is the identity on the extended reals, so the roundings to bf16 around it vanish. A product
  into a zero accumulator is the plain sum over the contracted axis (`rows_mul`, `rows_mul_transposed`,
  `gates_mul`), so
    `layer y W β (r, e) = (∑ d, y (r, d) · W (d, e)) + β (0, e)`,
  and the output block of a grid point is, from the projected queries `qp`, the mask block and the
  whole key and value projections `K`, `V` of the batch,
    `gated qp mask K V (0, r, d) = ∑ j, logistic (if mask (0, r, j) ≠ 0 then ∑ e, qp (r, e) · K (j, e) else fill) · V (j, d)`.
-/
import proofs.«117325_j42880953483476_2_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.Ops

open Cert.KernelIdeal Cert.KernelIdeal.Facts₀ Idealize.ShloMosaic Idealize.ShloMosaic.ValueIdx

variable {F : FTy → Type} [FloatOps F]

/-! ## The body's three kinds of value, at any instance -/

/-- A loaded `[1, 256, 768]` block of rows, viewed `[256, 768]` and narrowed for the matrix unit. -/
def rowsOf (x : Vec F S1x256x768 .f32) : FVec F S256x768 .bf16 :=
  truncf .bf16 (shapeCast S256x768 x shapeCasts_S1x256x768_S256x768) bitsLt_bf16_f32

/-- One linear layer on 256 rows: `y W + β`, the bias row broadcast down the rows. -/
def layer (y : FVec F S256x768 .bf16) (W : FVec F S768x768 .bf16) (β : FVec F S1x768 .f32) : FVec F S256x768 .bf16 :=
  truncf .bf16 (addf (matmul dot_S256x768_S768x768_S256x768_1_0_0_1_n_n none y W (constant S256x768 .f32 0x00000000#32))
    (broadcastTo S256x768 β broadcasts_S1x768_S256x768)) bitsLt_bf16_f32

/-- The output block: scores of the projected queries against every key row, masked, passed through
    the logistic function, and summed against the value rows. -/
def gated (qp : FVec F S256x768 .bf16) (mask : Vec F S1x256x2048 .i32) (K V : Vec F S2048x768 .bf16) : FVec F S1x256x768 .f32 :=
  shapeCast S1x256x768
    (matmul dot_S256x2048_S2048x768_S256x768_1_0_0_1_n_n none
      (truncf .bf16
        (logistic (select (cmpi .ne (shapeCast S256x2048 mask shapeCasts_S1x256x2048_S256x2048) (constantI S256x2048 32 0#32))
          (matmul dot_S256x768_S2048x768_S256x2048_1_1_0_0_n_n none qp K (constant S256x2048 .f32 0x00000000#32))
          (broadcast S256x2048 (Scalar.ofBits .f32 0xCE6E6B28#32))))
        bitsLt_bf16_f32)
      V (constant S256x768 .f32 0x00000000#32))
    shapeCasts_S256x768_S1x256x768

/-! ## Products into a zero accumulator are plain sums -/

theorem rows_mul_lhs0 (i : S256x768.Idx) (q : dot_S256x768_S768x768_S256x768_1_0_0_1_n_n.contr.Idx) : (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem rows_mul_lhs1 (i : S256x768.Idx) (q : dot_S256x768_S768x768_S256x768_1_0_0_1_n_n.contr.Idx) : (dot_S256x768_S768x768_S256x768_1_0_0_1_n_n.lhsIdx i q 1).val = (q ⟨0, by decide⟩).val :=
  dot_S256x768_S768x768_S256x768_1_0_0_1_n_n.lhsIdx_val_of_single rfl i q
theorem rows_mul_rhs1 (i : S256x768.Idx) (q : dot_S256x768_S768x768_S256x768_1_0_0_1_n_n.contr.Idx) : (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl
theorem rows_mul_rhs0 (i : S256x768.Idx) (q : dot_S256x768_S768x768_S256x768_1_0_0_1_n_n.contr.Idx) : (dot_S256x768_S768x768_S256x768_1_0_0_1_n_n.rhsIdx i q 0).val = (q ⟨0, by decide⟩).val :=
  dot_S256x768_S768x768_S256x768_1_0_0_1_n_n.rhsIdx_val_of_single rfl i q

/-- Rows times a `[768, 768]` matrix: entry `(r, c)` is `∑ k, y (r, k) · W (k, c)`. -/
theorem rows_mul {φ₁ φ₂ : FTy} (y : FVec Ideal S256x768 φ₁) (W : FVec Ideal S768x768 φ₂) (r : Fin 256) (c : Fin 768) :
    matmul dot_S256x768_S768x768_S256x768_1_0_0_1_n_n none y W (constant (F := Ideal) S256x768 .f32 0x00000000#32) (ix2 r c)
      = ∑ k : Fin 768, y (ix2 r k) * W (ix2 k c) := by
  simp only [matmul]
  rw [Ideal.matmul_constant_zero_apply, ← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 r c) ((contrEquiv1 dot_S256x768_S768x768_S256x768_1_0_0_1_n_n 768 rfl rfl).symm k) = ix2 r k := funext fun a => Fin.ext (by
    match a with
    | ⟨0, _⟩ => exact rows_mul_lhs0 _ _
    | ⟨1, _⟩ => exact (rows_mul_lhs1 _ _).trans hk)
  have er : dot_S256x768_S768x768_S256x768_1_0_0_1_n_n.rhsIdx (ix2 r c) ((contrEquiv1 dot_S256x768_S768x768_S256x768_1_0_0_1_n_n 768 rfl rfl).symm k) = ix2 k c := funext fun a => Fin.ext (by
    match a with
    | ⟨0, _⟩ => exact (rows_mul_rhs0 _ _).trans hk
    | ⟨1, _⟩ => exact rows_mul_rhs1 _ _)
  rw [el, er]

theorem rows_mul_transposed_lhs0 (i : S256x2048.Idx) (q : dot_S256x768_S2048x768_S256x2048_1_1_0_0_n_n.contr.Idx) : (dot_S256x768_S2048x768_S256x2048_1_1_0_0_n_n.lhsIdx i q 0).val = (i 0).val := by
  unfold DotDims.lhsIdx
  rw [dif_neg (show ¬(0 : Fin S256x768.rank) ∈ dot_S256x768_S2048x768_S256x2048_1_1_0_0_n_n.lhsBatch by decide), dif_pos (show (0 : Fin S256x768.rank) ∈ dot_S256x768_S2048x768_S256x2048_1_1_0_0_n_n.lhsNonContracting by decide)]
  rfl
theorem rows_mul_transposed_lhs1 (i : S256x2048.Idx) (q : dot_S256x768_S2048x768_S256x2048_1_1_0_0_n_n.contr.Idx) : (dot_S256x768_S2048x768_S256x2048_1_1_0_0_n_n.lhsIdx i q 1).val = (q ⟨0, by decide⟩).val :=
  dot_S256x768_S2048x768_S256x2048_1_1_0_0_n_n.lhsIdx_val_of_single rfl i q
theorem rows_mul_transposed_rhs0 (i : S256x2048.Idx) (q : dot_S256x768_S2048x768_S256x2048_1_1_0_0_n_n.contr.Idx) : (dot_S256x768_S2048x768_S256x2048_1_1_0_0_n_n.rhsIdx i q 0).val = (i 1).val := by
  unfold DotDims.rhsIdx
  rw [dif_neg (show ¬(0 : Fin S2048x768.rank) ∈ dot_S256x768_S2048x768_S256x2048_1_1_0_0_n_n.rhsBatch by decide), dif_pos (show (0 : Fin S2048x768.rank) ∈ dot_S256x768_S2048x768_S256x2048_1_1_0_0_n_n.rhsNonContracting by decide)]
  rfl
theorem rows_mul_transposed_rhs1 (i : S256x2048.Idx) (q : dot_S256x768_S2048x768_S256x2048_1_1_0_0_n_n.contr.Idx) : (dot_S256x768_S2048x768_S256x2048_1_1_0_0_n_n.rhsIdx i q 1).val = (q ⟨0, by decide⟩).val :=
  dot_S256x768_S2048x768_S256x2048_1_1_0_0_n_n.rhsIdx_val_of_single rfl i q

/-- Rows against the ROWS of a `[2048, 768]` matrix (both contracted on their feature axis): entry `(r, c)` is `∑ k, y (r, k) · W (c, k)`. -/
theorem rows_mul_transposed {φ₁ φ₂ : FTy} (y : FVec Ideal S256x768 φ₁) (W : FVec Ideal S2048x768 φ₂) (r : Fin 256) (c : Fin 2048) :
    matmul dot_S256x768_S2048x768_S256x2048_1_1_0_0_n_n none y W (constant (F := Ideal) S256x2048 .f32 0x00000000#32) (ix2 r c)
      = ∑ k : Fin 768, y (ix2 r k) * W (ix2 c k) := by
  simp only [matmul]
  rw [Ideal.matmul_constant_zero_apply, ← Equiv.sum_comp (contrEquiv1 dot_S256x768_S2048x768_S256x2048_1_1_0_0_n_n 768 rfl rfl).symm]
  refine Finset.sum_congr rfl fun k _ => ?_
  have hk := contrEquiv1_symm_val dot_S256x768_S2048x768_S256x2048_1_1_0_0_n_n 768 rfl rfl k
  have el : dot_S256x768_S2048x768_S256x2048_1_1_0_0_n_n.lhsIdx (ix2 r c) ((contrEquiv1 dot_S256x768_S2048x768_S256x2048_1_1_0_0_n_n 768 rfl rfl).symm k) = ix2 r k := funext fun a => Fin.ext (by
    match a with
    | ⟨0, _⟩ => exact rows_mul_transposed_lhs0 _ _
    | ⟨1, _⟩ => exact (rows_mul_transposed_lhs1 _ _).trans hk)
  have er : dot_S256x768_S2048x768_S256x2048_1_1_0_0_n_n.rhsIdx (ix2 r c) ((contrEquiv1 dot_S256x768_S2048x768_S256x2048_1_1_0_0_n_n 768 rfl rfl).symm k) = ix2 c k := funext fun a => Fin.ext (by
    match a with
    | ⟨1, _⟩ => exact (rows_mul_transposed_rhs1 _ _).trans hk
    | ⟨0, _⟩ => exact rows_mul_transposed_rhs0 _ _)
  rw [el, er]

theorem gates_mul_lhs0 (i : S256x768.Idx) (q : dot_S256x2048_S2048x768_S256x768_1_0_0_1_n_n.contr.Idx) : (dot_S256x2048_S2048x768_S256x768_1_0_0_1_n_n.lhsIdx i q 0).val = (i 0).val := by
  unfold DotDims.lhsIdx
  rw [dif_neg (show ¬(0 : Fin S256x2048.rank) ∈ dot_S256x2048_S2048x768_S256x768_1_0_0_1_n_n.lhsBatch by decide), dif_pos (show (0 : Fin S256x2048.rank) ∈ dot_S256x2048_S2048x768_S256x768_1_0_0_1_n_n.lhsNonContracting by decide)]
  rfl
theorem gates_mul_lhs1 (i : S256x768.Idx) (q : dot_S256x2048_S2048x768_S256x768_1_0_0_1_n_n.contr.Idx) : (dot_S256x2048_S2048x768_S256x768_1_0_0_1_n_n.lhsIdx i q 1).val = (q ⟨0, by decide⟩).val :=
  dot_S256x2048_S2048x768_S256x768_1_0_0_1_n_n.lhsIdx_val_of_single rfl i q
theorem gates_mul_rhs1 (i : S256x768.Idx) (q : dot_S256x2048_S2048x768_S256x768_1_0_0_1_n_n.contr.Idx) : (dot_S256x2048_S2048x768_S256x768_1_0_0_1_n_n.rhsIdx i q 1).val = (i 1).val := by
  unfold DotDims.rhsIdx
  rw [dif_neg (show ¬(1 : Fin S2048x768.rank) ∈ dot_S256x2048_S2048x768_S256x768_1_0_0_1_n_n.rhsBatch by decide), dif_pos (show (1 : Fin S2048x768.rank) ∈ dot_S256x2048_S2048x768_S256x768_1_0_0_1_n_n.rhsNonContracting by decide)]
  rfl
theorem gates_mul_rhs0 (i : S256x768.Idx) (q : dot_S256x2048_S2048x768_S256x768_1_0_0_1_n_n.contr.Idx) : (dot_S256x2048_S2048x768_S256x768_1_0_0_1_n_n.rhsIdx i q 0).val = (q ⟨0, by decide⟩).val :=
  dot_S256x2048_S2048x768_S256x768_1_0_0_1_n_n.rhsIdx_val_of_single rfl i q

/-- Gates times the `[2048, 768]` value rows: entry `(r, c)` is `∑ k, g (r, k) · V (k, c)`. -/
theorem gates_mul {φ₁ φ₂ : FTy} (y : FVec Ideal S256x2048 φ₁) (W : FVec Ideal S2048x768 φ₂) (r : Fin 256) (c : Fin 768) :
    matmul dot_S256x2048_S2048x768_S256x768_1_0_0_1_n_n none y W (constant (F := Ideal) S256x768 .f32 0x00000000#32) (ix2 r c)
      = ∑ k : Fin 2048, y (ix2 r k) * W (ix2 k c) := by
  simp only [matmul]
  rw [Ideal.matmul_constant_zero_apply, ← Equiv.sum_comp (contrEquiv1 dot_S256x2048_S2048x768_S256x768_1_0_0_1_n_n 2048 rfl rfl).symm]
  refine Finset.sum_congr rfl fun k _ => ?_
  have hk := contrEquiv1_symm_val dot_S256x2048_S2048x768_S256x768_1_0_0_1_n_n 2048 rfl rfl k
  have el : dot_S256x2048_S2048x768_S256x768_1_0_0_1_n_n.lhsIdx (ix2 r c) ((contrEquiv1 dot_S256x2048_S2048x768_S256x768_1_0_0_1_n_n 2048 rfl rfl).symm k) = ix2 r k := funext fun a => Fin.ext (by
    match a with
    | ⟨0, _⟩ => exact gates_mul_lhs0 _ _
    | ⟨1, _⟩ => exact (gates_mul_lhs1 _ _).trans hk)
  have er : dot_S256x2048_S2048x768_S256x768_1_0_0_1_n_n.rhsIdx (ix2 r c) ((contrEquiv1 dot_S256x2048_S2048x768_S256x768_1_0_0_1_n_n 2048 rfl rfl).symm k) = ix2 k c := funext fun a => Fin.ext (by
    match a with
    | ⟨0, _⟩ => exact (gates_mul_rhs0 _ _).trans hk
    | ⟨1, _⟩ => exact gates_mul_rhs1 _ _)
  rw [el, er]

/-! ## The three values read at an index -/

/-- The viewed block reads row `r`, feature `d` of the loaded block at `(0, r, d)`. -/
theorem rowsOf_apply (x : Vec Ideal S1x256x768 .f32) (r : Fin 256) (d : Fin 768) :
    rowsOf x (ix2 r d) = x (ix3 0 r d) := by
  show shapeCast S256x768 x shapeCasts_S1x256x768_S256x768 (ix2 r d) = _
  refine (shapeCast_dropUnit_apply ![256, 768] x _ (ix2 r d)).trans ?_
  exact congrArg x (funext fun a => by match a with | ⟨0, _⟩ => rfl | ⟨1, _⟩ => rfl | ⟨2, _⟩ => rfl)

/-- A linear layer at row `r`, feature `e`. -/
theorem layer_apply (y : FVec Ideal S256x768 .bf16) (W : FVec Ideal S768x768 .bf16) (β : FVec Ideal S1x768 .f32)
    (r : Fin 256) (e : Fin 768) :
    layer y W β (ix2 r e) = (∑ d : Fin 768, y (ix2 r d) * W (ix2 d e)) + β (ix2 0 e) := by
  show matmul dot_S256x768_S768x768_S256x768_1_0_0_1_n_n none y W (constant (F := Ideal) S256x768 .f32 0x00000000#32) (ix2 r e)
      + broadcastTo S256x768 β broadcasts_S1x768_S256x768 (ix2 r e) = _
  rw [rows_mul]
  refine congrArg (_ + ·) ?_
  exact broadcastTo_apply β _ (ix2 r e) (ix2 0 e) (fun a => match a with
    | ⟨0, _⟩ => by show 0 = if (1 : Nat) = 1 then 0 else _; rw [if_pos rfl]
    | ⟨1, _⟩ => by show e.val = if (768 : Nat) = 1 then 0 else _; rw [if_neg (by decide)]; rfl)

/-- The output block at `(0, r, d)`: the gated sum over the 2048 key / value rows. -/
theorem gated_apply (qp : FVec Ideal S256x768 .bf16) (mask : Vec Ideal S1x256x2048 .i32) (K V : FVec Ideal S2048x768 .bf16)
    (r : Fin 256) (d : Fin 768) :
    gated qp mask K V (ix3 0 r d)
      = ∑ j : Fin 2048, Ideal.logistic (Scalar.select (IntOp.cmpi .ne (mask (ix3 0 r j)) 0#32)
          (∑ e : Fin 768, qp (ix2 r e) * K (ix2 j e)) (Ideal.ofBits .f32 0xCE6E6B28#32)) * V (ix2 j d) := by
  unfold gated
  refine (shapeCast_addUnit_apply ![256, 768] _ _ (ix3 0 r d)).trans ?_
  have e2 : (fun a : Fin 2 => (ix3 (0 : Fin 1) r d) a.succ) = ix2 r d :=
    funext fun a => by match a with | ⟨0, _⟩ => rfl | ⟨1, _⟩ => rfl
  rw [e2, gates_mul]
  refine Finset.sum_congr rfl fun j _ => ?_
  refine congrArg (· * V (ix2 j d)) ?_
  show Ideal.logistic (Scalar.select (IntOp.cmpi .ne (shapeCast S256x2048 mask shapeCasts_S1x256x2048_S256x2048 (ix2 r j)) 0#32)
      (matmul dot_S256x768_S2048x768_S256x2048_1_1_0_0_n_n none qp K (constant (F := Ideal) S256x2048 .f32 0x00000000#32) (ix2 r j))
      (Ideal.ofBits .f32 0xCE6E6B28#32)) = _
  rw [rows_mul_transposed]
  have em : shapeCast S256x2048 mask shapeCasts_S1x256x2048_S256x2048 (ix2 r j) = mask (ix3 0 r j) := by
    refine (shapeCast_dropUnit_apply ![256, 2048] mask _ (ix2 r j)).trans ?_
    exact congrArg mask (funext fun a => by match a with | ⟨0, _⟩ => rfl | ⟨1, _⟩ => rfl | ⟨2, _⟩ => rfl)
  rw [em]

/-! ## The two scratch buffers of a batch, as functions of the batch's block of `values`

`valueRows x W β (l, e)` is the value layer of row `l` of the batch's block `x`; `keyRows` the key layer of
those. A block of 256 consecutive rows, read from `x` at row offset `o` and pushed through the layers, is the
restriction of these two functions to rows `o … o + 255`: that is what each of the body's sixteen stores
writes, at the rectangle of the scratch with the same row offset. -/

/-- The value projection of every row of a batch's block. -/
def valueRows (x : Vec Ideal S1x2048x768 .f32) (W : FVec Ideal S768x768 .bf16) (β : FVec Ideal S1x768 .f32) :
    FVec Ideal S2048x768 .bf16 :=
  fun j => (∑ d : Fin 768, x (ix3 0 (j 0) d) * W (ix2 d (j 1))) + β (ix2 0 (j 1))

/-- The key projection of every row: the key layer of the value projection. -/
def keyRows (x : Vec Ideal S1x2048x768 .f32) (W : FVec Ideal S768x768 .bf16) (β : FVec Ideal S1x768 .f32)
    (Wk : FVec Ideal S768x768 .bf16) (βk : FVec Ideal S1x768 .f32) : FVec Ideal S2048x768 .bf16 :=
  fun j => (∑ d : Fin 768, valueRows x W β (ix2 (j 0) d) * Wk (ix2 d (j 1))) + βk (ix2 0 (j 1))

/-- The rows `o … o + 255` of the block, through the value layer, are `valueRows` on those rows. -/
theorem valueRows_block (x : Vec Ideal S1x2048x768 .f32) (W : FVec Ideal S768x768 .bf16) (β : FVec Ideal S1x768 .f32)
    (o : Nat) (hl : ∀ a, (![0, o, 0] : Fin 3 → Nat) a + S1x256x768.size a ≤ S1x2048x768.size a)
    (hs : ∀ a, (![o, 0] : Fin 2 → Nat) a + S256x768.size a ≤ S2048x768.size a) (y : S256x768.Idx) :
    layer (rowsOf (View.ld x (Rect.unit (s := S1x2048x768) ![0, o, 0] S1x256x768.size hl))) W β y
      = valueRows x W β ((Rect.unit (s := S2048x768) ![o, 0] S256x768.size hs).emb y) := by
  obtain ⟨r, e, rfl⟩ : ∃ (r : Fin 256) (e : Fin 768), y = ix2 r e := ⟨y 0, y 1, eq_ix2 y⟩
  rw [layer_apply]
  unfold valueRows
  have h1 : ((Rect.unit (s := S2048x768) ![o, 0] S256x768.size hs).emb (ix2 r e)) 1 = e :=
    Fin.ext (by show 0 + 1 * e.val = e.val; omega)
  rw [h1]
  refine congrArg (· + β (ix2 0 e)) (Finset.sum_congr rfl fun d _ => ?_)
  rw [rowsOf_apply]
  refine congrArg (· * W (ix2 d e)) ?_
  show x ((Rect.unit (s := S1x2048x768) ![0, o, 0] S1x256x768.size hl).idx (ix3 0 r d)) = _
  refine congrArg x (funext fun a => Fin.ext ?_)
  match a with
  | ⟨0, _⟩ => show 0 + 1 * 0 = 0; omega
  | ⟨1, _⟩ => show o + 1 * r.val = o + 1 * r.val; rfl
  | ⟨2, _⟩ => show 0 + 1 * d.val = d.val; omega

/-- The same rows, through both layers, are `keyRows` on those rows. -/
theorem keyRows_block (x : Vec Ideal S1x2048x768 .f32) (W : FVec Ideal S768x768 .bf16) (β : FVec Ideal S1x768 .f32)
    (Wk : FVec Ideal S768x768 .bf16) (βk : FVec Ideal S1x768 .f32)
    (o : Nat) (hl : ∀ a, (![0, o, 0] : Fin 3 → Nat) a + S1x256x768.size a ≤ S1x2048x768.size a)
    (hs : ∀ a, (![o, 0] : Fin 2 → Nat) a + S256x768.size a ≤ S2048x768.size a) (y : S256x768.Idx) :
    layer (layer (rowsOf (View.ld x (Rect.unit (s := S1x2048x768) ![0, o, 0] S1x256x768.size hl))) W β) Wk βk y
      = keyRows x W β Wk βk ((Rect.unit (s := S2048x768) ![o, 0] S256x768.size hs).emb y) := by
  obtain ⟨r, e, rfl⟩ : ∃ (r : Fin 256) (e : Fin 768), y = ix2 r e := ⟨y 0, y 1, eq_ix2 y⟩
  rw [layer_apply]
  unfold keyRows
  have h1 : ((Rect.unit (s := S2048x768) ![o, 0] S256x768.size hs).emb (ix2 r e)) 1 = e :=
    Fin.ext (by show 0 + 1 * e.val = e.val; omega)
  rw [h1]
  refine congrArg (· + βk (ix2 0 e)) (Finset.sum_congr rfl fun d _ => ?_)
  refine congrArg (· * Wk (ix2 d e)) ?_
  rw [valueRows_block x W β o hl hs (ix2 r d)]
  refine congrArg (valueRows x W β) (funext fun a => Fin.ext ?_)
  match a with
  | ⟨0, _⟩ => rfl
  | ⟨1, _⟩ => show 0 + 1 * d.val = d.val; omega

end Cert.KernelIdeal.Ops

end
-- ==== Proof.Payloads.lean ====
/-
  The body's stored values, named.

  The kernel projects the batch's `values` block eight rows-blocks at a time: each block of 256 rows
  goes through the value layer and is stored into the value scratch, and that projected block goes
  through the key layer and is stored into the key scratch. The sixteen stored values and the one
  output value are, as terms, the two layers of `Ops` composed: the shape casts to the same shape in
  between are the identity.
-/
import proofs.«117325_j42880953483476_2_alg».proof.Proof.Gen.KernelIdeal.Skeleton
import proofs.«117325_j42880953483476_2_alg».proof.Proof.Ops

noncomputable section

namespace Cert.KernelIdeal.Ops

open Cert.KernelIdeal Cert.KernelIdeal.Gen Cert.KernelIdeal.Facts₀ Idealize.ShloMosaic

variable {F : FTy → Type} [FloatOps F]

/-! ## Row block 0 and row block 1 (their stored values are spelt through a few more intermediate names) -/

theorem stored_v0 (W : Vec F S768x768 .bf16) (β : Vec F S1x768 .f32) (x : Vec F S1x256x768 .f32) :
    k0_pay10 W β x = layer (rowsOf x) W β := by
  unfold k0_pay10 k0_pay9 k0_pay5 k0_pay7
  simp only [shapeCast_self]
  rfl

theorem stored_k0 (W Wk : Vec F S768x768 .bf16) (β βk : Vec F S1x768 .f32) (x : Vec F S1x256x768 .f32) :
    k0_pay11 W Wk β βk x = layer (layer (rowsOf x) W β) Wk βk := by
  unfold k0_pay11 k0_pay9 k0_pay5 k0_pay6 k0_pay7 k0_pay8
  simp only [shapeCast_self]
  rfl

theorem stored_v1 (W : Vec F S768x768 .bf16) (β : Vec F S1x768 .f32) (x : Vec F S1x256x768 .f32) :
    k0_pay14 (k0_pay7 β) (k0_pay12 W x) = layer (rowsOf x) W β := by
  unfold k0_pay14 k0_pay13 k0_pay12 k0_pay5 k0_pay7
  simp only [shapeCast_self]
  rfl

theorem stored_k1 (W Wk : Vec F S768x768 .bf16) (β βk : Vec F S1x768 .f32) (x : Vec F S1x256x768 .f32) :
    k0_pay15 (k0_pay6 Wk) (k0_pay7 β) (k0_pay8 βk) (k0_pay12 W x) = layer (layer (rowsOf x) W β) Wk βk := by
  unfold k0_pay15 k0_pay13 k0_pay12 k0_pay5 k0_pay6 k0_pay7 k0_pay8
  simp only [shapeCast_self]
  rfl

/-! ## Row blocks 2 to 7 -/

theorem stored_v2 (W : Vec F S768x768 .bf16) (β : Vec F S1x768 .f32) (x : Vec F S1x256x768 .f32) :
    k0_pay17 (k0_pay5 W) (k0_pay7 β) x = layer (rowsOf x) W β := by
  unfold k0_pay17 k0_pay16 k0_pay5 k0_pay7
  simp only [shapeCast_self]
  rfl

theorem stored_v3 (W : Vec F S768x768 .bf16) (β : Vec F S1x768 .f32) (x : Vec F S1x256x768 .f32) :
    k0_pay20 (k0_pay5 W) (k0_pay7 β) x = layer (rowsOf x) W β := by
  unfold k0_pay20 k0_pay19 k0_pay5 k0_pay7
  simp only [shapeCast_self]
  rfl

theorem stored_v4 (W : Vec F S768x768 .bf16) (β : Vec F S1x768 .f32) (x : Vec F S1x256x768 .f32) :
    k0_pay23 (k0_pay5 W) (k0_pay7 β) x = layer (rowsOf x) W β := by
  unfold k0_pay23 k0_pay22 k0_pay5 k0_pay7
  simp only [shapeCast_self]
  rfl

theorem stored_v5 (W : Vec F S768x768 .bf16) (β : Vec F S1x768 .f32) (x : Vec F S1x256x768 .f32) :
    k0_pay26 (k0_pay5 W) (k0_pay7 β) x = layer (rowsOf x) W β := by
  unfold k0_pay26 k0_pay25 k0_pay5 k0_pay7
  simp only [shapeCast_self]
  rfl

theorem stored_v6 (W : Vec F S768x768 .bf16) (β : Vec F S1x768 .f32) (x : Vec F S1x256x768 .f32) :
    k0_pay29 (k0_pay5 W) (k0_pay7 β) x = layer (rowsOf x) W β := by
  unfold k0_pay29 k0_pay28 k0_pay5 k0_pay7
  simp only [shapeCast_self]
  rfl

theorem stored_v7 (W : Vec F S768x768 .bf16) (β : Vec F S1x768 .f32) (x : Vec F S1x256x768 .f32) :
    k0_pay2 (k0_pay5 W) (k0_pay7 β) x = layer (rowsOf x) W β := by
  unfold k0_pay2 k0_pay1 k0_pay5 k0_pay7
  simp only [shapeCast_self]
  rfl

theorem stored_k2 (W Wk : Vec F S768x768 .bf16) (β βk : Vec F S1x768 .f32) (x : Vec F S1x256x768 .f32) :
    k0_pay18 (k0_pay5 W) (k0_pay6 Wk) (k0_pay7 β) (k0_pay8 βk) x = layer (layer (rowsOf x) W β) Wk βk := by
  unfold k0_pay18 k0_pay16 k0_pay5 k0_pay6 k0_pay7 k0_pay8
  simp only [shapeCast_self]
  rfl

theorem stored_k3 (W Wk : Vec F S768x768 .bf16) (β βk : Vec F S1x768 .f32) (x : Vec F S1x256x768 .f32) :
    k0_pay21 (k0_pay5 W) (k0_pay6 Wk) (k0_pay7 β) (k0_pay8 βk) x = layer (layer (rowsOf x) W β) Wk βk := by
  unfold k0_pay21 k0_pay19 k0_pay5 k0_pay6 k0_pay7 k0_pay8
  simp only [shapeCast_self]
  rfl

theorem stored_k4 (W Wk : Vec F S768x768 .bf16) (β βk : Vec F S1x768 .f32) (x : Vec F S1x256x768 .f32) :
    k0_pay24 (k0_pay5 W) (k0_pay6 Wk) (k0_pay7 β) (k0_pay8 βk) x = layer (layer (rowsOf x) W β) Wk βk := by
  unfold k0_pay24 k0_pay22 k0_pay5 k0_pay6 k0_pay7 k0_pay8
  simp only [shapeCast_self]
  rfl

theorem stored_k5 (W Wk : Vec F S768x768 .bf16) (β βk : Vec F S1x768 .f32) (x : Vec F S1x256x768 .f32) :
    k0_pay27 (k0_pay5 W) (k0_pay6 Wk) (k0_pay7 β) (k0_pay8 βk) x = layer (layer (rowsOf x) W β) Wk βk := by
  unfold k0_pay27 k0_pay25 k0_pay5 k0_pay6 k0_pay7 k0_pay8
  simp only [shapeCast_self]
  rfl

theorem stored_k6 (W Wk : Vec F S768x768 .bf16) (β βk : Vec F S1x768 .f32) (x : Vec F S1x256x768 .f32) :
    k0_pay30 (k0_pay5 W) (k0_pay6 Wk) (k0_pay7 β) (k0_pay8 βk) x = layer (layer (rowsOf x) W β) Wk βk := by
  unfold k0_pay30 k0_pay28 k0_pay5 k0_pay6 k0_pay7 k0_pay8
  simp only [shapeCast_self]
  rfl

theorem stored_k7 (W Wk : Vec F S768x768 .bf16) (β βk : Vec F S1x768 .f32) (x : Vec F S1x256x768 .f32) :
    k0_pay3 (k0_pay5 W) (k0_pay6 Wk) (k0_pay7 β) (k0_pay8 βk) x = layer (layer (rowsOf x) W β) Wk βk := by
  unfold k0_pay3 k0_pay1 k0_pay5 k0_pay6 k0_pay7 k0_pay8
  simp only [shapeCast_self]
  rfl

/-! ## The output block -/

theorem stored_out (q : Vec F S1x256x768 .f32) (Wq : Vec F S768x768 .bf16) (βq : Vec F S1x768 .f32)
    (mask : Vec F S1x256x2048 .i32) (K V : Vec F S2048x768 .bf16) :
    k0_pay4 q Wq βq mask K V = gated (layer (rowsOf q) Wq βq) mask K V := by
  unfold k0_pay4
  simp only [shapeCast_self]
  rfl

end Cert.KernelIdeal.Ops

end
-- ==== Proof.Pieces.lean ====
/-
  What one run of the body leaves behind, as values.

  At the first grid point of a batch (`qi = 0`) the body fills the two scratch buffers: eight stores each,
  row block `o … o + 255` of the value scratch receiving the value layer of rows `o … o + 255` of the batch's
  `values` block, and the same rows of the key scratch the key layer of those. The eight rectangles tile the
  scratch, and every stored block is the restriction of ONE function of the scratch index (`valueRows`,
  `keyRows`), so the scratch ends holding that function (`value_scratch`, `key_scratch`).
  At every grid point the body then stores one output block: `gated` of the projected query rows, the
  mask block and the two scratch buffers — the ones just filled at the first point of a batch (`out_first`),
  the ones the previous point left at the others (`out_later`).
-/
import proofs.«117325_j42880953483476_2_alg».proof.Proof.Gen.KernelIdeal.Frame
import proofs.«117325_j42880953483476_2_alg».proof.Proof.Payloads
import Idealize.ShloMosaic.Lib.Pipeline.Value
import Idealize.ShloMosaic.Lib.Tactic

set_option maxRecDepth 16384

noncomputable section

namespace Cert.KernelIdeal.Ops

open Cert.KernelIdeal Cert.KernelIdeal.Gen Cert.KernelIdeal.Facts₀ Idealize.ShloMosaic Idealize.ShloMosaic.TcCoe Idealize.SL.Sem

variable {F : FTy → Type} [FloatOps F]

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

/-- A load of the whole scratch after a list of stores reads what the stores left. -/
theorem readCov_whole {sig' : RefSig} {κ : Kind} {sp : Space} {e : EltTy} (v : View sig' κ sp S2048x768 e)
    (L : List (View.Piece (Elt F) S2048x768 e)) (inb : ∀ a, (![0, 0] : Fin 2 → Nat) a + S2048x768.size a ≤ S2048x768.size a) :
    v.readCov L (Rect.unit ![0, 0] S2048x768.size inb).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-! ## The output block of a point -/

/-- At a later point of a batch: the block is `gated` over the scratch contents the point found. -/
theorem out_later (c : Dev nD) (i : grid0.Coords) (arg2 : Memref sig .tc .vmem S1x256x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x256x2048 .i32) (harg10 : arg10.IsWhole) (arg11 : Memref sig .tc .vmem S1x256x768 .f32) (harg11 : arg11.IsWhole) (arg12 : Memref sig .tc .vmem S2048x768 .bf16) (harg12 : arg12.IsWhole) (arg13 : Memref sig .tc .vmem S2048x768 .bf16) (harg13 : arg13.IsWhole) (hc0 : ¬cond0_0 i) (x0 : Vec F S1x256x768 .f32) (x1 : Vec F S1x2048x768 .f32) (x2 : Vec F S768x768 .bf16) (x3 : Vec F S1x768 .f32) (x4 : Vec F S768x768 .bf16) (x5 : Vec F S1x768 .f32) (x6 : Vec F S768x768 .bf16) (x7 : Vec F S1x768 .f32) (x8 : Vec F S1x256x2048 .i32) (xs0 xs1 : Vec F S2048x768 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = gated (layer (rowsOf x0) x2 x3) x8 xs0 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  rw [View.canon_unit_zero zero3]
  simp only [View.readAt_eq_ld]
  simp only [harg2.read_unread, harg4.read_unread, harg5.read_unread, harg10.read_unread, harg12.read_unread, harg13.read_unread]
  simp only [View.ld_unit_zero (S := S768x768) zero2, View.ld_unit_zero (S := S1x768) zero2, View.ld_unit_zero (S := S2048x768) zero2,
    View.ld_unit_zero (S := S1x256x768) zero3, View.ld_unit_zero (S := S1x256x2048) zero3]
  exact stored_out _ _ _ _ _ _

/-- At the first point of a batch: the block is `gated` over the scratch contents the point itself
    has just written (its loads of the two scratch buffers read back its own sixteen stores). -/
theorem out_first (c : Dev nD) (i : grid0.Coords) (arg2 : Memref sig .tc .vmem S1x256x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x256x2048 .i32) (harg10 : arg10.IsWhole) (arg11 : Memref sig .tc .vmem S1x256x768 .f32) (harg11 : arg11.IsWhole) (arg12 : Memref sig .tc .vmem S2048x768 .bf16) (harg12 : arg12.IsWhole) (arg13 : Memref sig .tc .vmem S2048x768 .bf16) (harg13 : arg13.IsWhole) (hc0 : cond0_0 i) (x0 : Vec F S1x256x768 .f32) (x1 : Vec F S1x2048x768 .f32) (x2 : Vec F S768x768 .bf16) (x3 : Vec F S1x768 .f32) (x4 : Vec F S768x768 .bf16) (x5 : Vec F S1x768 .f32) (x6 : Vec F S768x768 .bf16) (x7 : Vec F S1x768 .f32) (x8 : Vec F S1x256x2048 .i32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = gated (layer (rowsOf x0) x2 x3) x8 (sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) := by
  unfold out0_A_9 sout0_A_0 sout0_A_1
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8),
    View.read_writes_junk_eq_canon, View.read_writes_junk_eq_canon]
  unfold kernelRun0_A
  dsimp only
  sl_unfold_words
  rw [View.canon_unit_zero zero3]
  rw [readCov_whole, readCov_whole]
  simp only [View.readAt_eq_ld]
  simp only [harg2.read_unread, harg3.read_unread, harg4.read_unread, harg5.read_unread, harg6.read_unread, harg7.read_unread, harg8.read_unread, harg9.read_unread, harg10.read_unread]
  simp only [View.ld_unit_zero (S := S768x768) zero2, View.ld_unit_zero (S := S1x768) zero2, View.ld_unit_zero (S := S1x256x768) zero3, View.ld_unit_zero (S := S1x256x2048) zero3]
  exact stored_out _ _ _ _ _ _

/-! ## The two scratch buffers after the first point of a batch -/

/-- The value scratch holds the value projection of every row of the batch's block. -/
theorem value_scratch (c : Dev nD) (i : grid0.Coords) (arg2 : Memref sig .tc .vmem S1x256x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x256x2048 .i32) (harg10 : arg10.IsWhole) (arg11 : Memref sig .tc .vmem S1x256x768 .f32) (harg11 : arg11.IsWhole) (arg12 : Memref sig .tc .vmem S2048x768 .bf16) (harg12 : arg12.IsWhole) (arg13 : Memref sig .tc .vmem S2048x768 .bf16) (harg13 : arg13.IsWhole) (hc0 : cond0_0 i) (x0 : Vec Ideal S1x256x768 .f32) (x1 : Vec Ideal S1x2048x768 .f32) (x2 : Vec Ideal S768x768 .bf16) (x3 : Vec Ideal S1x768 .f32) (x4 : Vec Ideal S768x768 .bf16) (x5 : Vec Ideal S1x768 .f32) (x6 : Vec Ideal S768x768 .bf16) (x7 : Vec Ideal S1x768 .f32) (x8 : Vec Ideal S1x256x2048 .i32) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = valueRows x1 x6 x7 := by
  unfold sout0_A_1
  rw [View.read_writes_junk_eq_canon]
  funext j
  refine View.canon_apply_of_pieces (valueRows x1 x6 x7) _ ?_ j (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 j)
  unfold kernelRun0_A
  dsimp only
  sl_unfold_words
  simp only [List.forall_mem_cons, List.not_mem_nil, false_imp_iff, implies_true, and_true]
  refine ⟨?_, ?_, ?_, ?_, ?_, ?_, ?_, ?_⟩
  · intro y
    simp only [View.readAt_eq_ld]
    simp only [harg3.read_unread, harg8.read_unread, harg9.read_unread]
    simp only [View.ld_unit_zero (S := S768x768) zero2, View.ld_unit_zero (S := S1x768) zero2]
    rw [stored_v7]
    exact valueRows_block x1 x6 x7 1792 _ _ y
  · intro y
    simp only [View.readAt_eq_ld]
    simp only [harg3.read_unread, harg8.read_unread, harg9.read_unread]
    simp only [View.ld_unit_zero (S := S768x768) zero2, View.ld_unit_zero (S := S1x768) zero2]
    rw [stored_v6]
    exact valueRows_block x1 x6 x7 1536 _ _ y
  · intro y
    simp only [View.readAt_eq_ld]
    simp only [harg3.read_unread, harg8.read_unread, harg9.read_unread]
    simp only [View.ld_unit_zero (S := S768x768) zero2, View.ld_unit_zero (S := S1x768) zero2]
    rw [stored_v5]
    exact valueRows_block x1 x6 x7 1280 _ _ y
  · intro y
    simp only [View.readAt_eq_ld]
    simp only [harg3.read_unread, harg8.read_unread, harg9.read_unread]
    simp only [View.ld_unit_zero (S := S768x768) zero2, View.ld_unit_zero (S := S1x768) zero2]
    rw [stored_v4]
    exact valueRows_block x1 x6 x7 1024 _ _ y
  · intro y
    simp only [View.readAt_eq_ld]
    simp only [harg3.read_unread, harg8.read_unread, harg9.read_unread]
    simp only [View.ld_unit_zero (S := S768x768) zero2, View.ld_unit_zero (S := S1x768) zero2]
    rw [stored_v3]
    exact valueRows_block x1 x6 x7 768 _ _ y
  · intro y
    simp only [View.readAt_eq_ld]
    simp only [harg3.read_unread, harg8.read_unread, harg9.read_unread]
    simp only [View.ld_unit_zero (S := S768x768) zero2, View.ld_unit_zero (S := S1x768) zero2]
    rw [stored_v2]
    exact valueRows_block x1 x6 x7 512 _ _ y
  · intro y
    simp only [View.readAt_eq_ld]
    simp only [harg3.read_unread, harg8.read_unread, harg9.read_unread]
    simp only [View.ld_unit_zero (S := S768x768) zero2, View.ld_unit_zero (S := S1x768) zero2]
    rw [stored_v1]
    exact valueRows_block x1 x6 x7 256 _ _ y
  · intro y
    simp only [View.readAt_eq_ld]
    simp only [harg3.read_unread, harg8.read_unread, harg9.read_unread]
    simp only [View.ld_unit_zero (S := S768x768) zero2, View.ld_unit_zero (S := S1x768) zero2]
    rw [stored_v0]
    exact valueRows_block x1 x6 x7 0 _ _ y

/-- The key scratch holds the key projection of every row. -/
theorem key_scratch (c : Dev nD) (i : grid0.Coords) (arg2 : Memref sig .tc .vmem S1x256x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x256x2048 .i32) (harg10 : arg10.IsWhole) (arg11 : Memref sig .tc .vmem S1x256x768 .f32) (harg11 : arg11.IsWhole) (arg12 : Memref sig .tc .vmem S2048x768 .bf16) (harg12 : arg12.IsWhole) (arg13 : Memref sig .tc .vmem S2048x768 .bf16) (harg13 : arg13.IsWhole) (hc0 : cond0_0 i) (x0 : Vec Ideal S1x256x768 .f32) (x1 : Vec Ideal S1x2048x768 .f32) (x2 : Vec Ideal S768x768 .bf16) (x3 : Vec Ideal S1x768 .f32) (x4 : Vec Ideal S768x768 .bf16) (x5 : Vec Ideal S1x768 .f32) (x6 : Vec Ideal S768x768 .bf16) (x7 : Vec Ideal S1x768 .f32) (x8 : Vec Ideal S1x256x2048 .i32) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = keyRows x1 x6 x7 x4 x5 := by
  unfold sout0_A_0
  rw [View.read_writes_junk_eq_canon]
  funext j
  refine View.canon_apply_of_pieces (keyRows x1 x6 x7 x4 x5) _ ?_ j (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 j)
  unfold kernelRun0_A
  dsimp only
  sl_unfold_words
  simp only [List.forall_mem_cons, List.not_mem_nil, false_imp_iff, implies_true, and_true]
  refine ⟨?_, ?_, ?_, ?_, ?_, ?_, ?_, ?_⟩
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k7]
    exact keyRows_block x1 x6 x7 x4 x5 1792 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k6]
    exact keyRows_block x1 x6 x7 x4 x5 1536 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k5]
    exact keyRows_block x1 x6 x7 x4 x5 1280 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k4]
    exact keyRows_block x1 x6 x7 x4 x5 1024 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k3]
    exact keyRows_block x1 x6 x7 x4 x5 768 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k2]
    exact keyRows_block x1 x6 x7 x4 x5 512 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k1]
    exact keyRows_block x1 x6 x7 x4 x5 256 _ _ y
  · intro y
    simp only [View.readAt_eq_ld]
    simp only [harg3.read_unread, harg6.read_unread, harg7.read_unread, harg8.read_unread, harg9.read_unread]
    simp only [View.ld_unit_zero (S := S768x768) zero2, View.ld_unit_zero (S := S1x768) zero2]
    rw [stored_k0]
    exact keyRows_block x1 x6 x7 x4 x5 0 _ _ y

end Cert.KernelIdeal.Ops

end
-- ==== Proof.Windows.lean ====
/-
  What the region finds in its windows, in terms of the arguments of the program.

  The grid is 8 batches × 8 query tiles, walked batch-major: point `t` is batch `t / 8`, tile `t % 8`.
  At point `t` the query window holds rows `256 (t % 8) … 256 (t % 8) + 255` of batch `t / 8` of `queries`,
  the mask window the same rows of the mask (widened from one bit to a word by the host before the
  call), the values window the whole batch `t / 8` of `values`; the six resident windows hold the
  transposed weights and the biases viewed as one row, as the host operations before the call made
  them: `Wᵀ (d, e) = W (e, d)`, `row β (0, e) = β (e)`.
-/
import proofs.«117325_j42880953483476_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Windows

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The grid has 64 points. -/
theorem N64 : cfg0.N = 64 := N_0

/-- The printed index maps, decided once over the 64 grid points: the three moving windows (queries, mask, result)
    are at block `(t / 8, t % 8, 0)`, the values window at `(t / 8, 0, 0)`, the resident ones at the origin. -/
theorem index_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val / 8 ∧ win0_8.index t (1 : Fin 3) = t.val % 8 ∧ win0_8.index t (2 : Fin 3) = 0)
    ∧ (win0_9.index t (0 : Fin 3) = t.val / 8 ∧ win0_9.index t (1 : Fin 3) = t.val % 8 ∧ win0_9.index t (2 : Fin 3) = 0) :=
  (by decide +kernel : ∀ t : Fin grid0.N, _)

/-- The batch of a point, and a row of its query tile as a row of the sequence. -/
abbrev batch (t : Fin cfg0.N) : Fin 8 := ⟨t.val / 8, by have := lt_of_lt_of_eq t.isLt N64; omega⟩
abbrev tileRow (t : Fin cfg0.N) (r : Fin 256) : Fin 2048 := ⟨256 * (t.val % 8) + r.val, by have := r.isLt; omega⟩

/-! ## The arrays the host operations before the call made -/

/-- A transposed weight. -/
theorem V_WqT (c : Dev nD) : (V m c main_v1 : S768x768.Idx → EReal)
    = truncf (F := Ideal) .bf16 (transpose S768x768 [1, 0] (m ((c : Thread nD τ).loc main_arg3)) transposes_S768x768_S768x768_1_0) bitsLt_bf16_f32 := by
  dsimp only [V, hostOps0]; after_results <;> rfl
theorem V_WkT (c : Dev nD) : (V m c main_v3 : S768x768.Idx → EReal)
    = truncf (F := Ideal) .bf16 (transpose S768x768 [1, 0] (m ((c : Thread nD τ).loc main_arg5)) transposes_S768x768_S768x768_1_0) bitsLt_bf16_f32 := by
  dsimp only [V, hostOps0]; after_results <;> rfl
theorem V_WvT (c : Dev nD) : (V m c main_v5 : S768x768.Idx → EReal)
    = truncf (F := Ideal) .bf16 (transpose S768x768 [1, 0] (m ((c : Thread nD τ).loc main_arg7)) transposes_S768x768_S768x768_1_0) bitsLt_bf16_f32 := by
  dsimp only [V, hostOps0]; after_results <;> rfl
/-- A bias viewed as one row. -/
theorem V_bq (c : Dev nD) : (V m c main_v6 : S1x768.Idx → EReal)
    = shapeCast S1x768 (m ((c : Thread nD τ).loc main_arg4)) shapeCasts_S768_S1x768 := by
  dsimp only [V, hostOps0]; after_results <;> rfl
theorem V_bk (c : Dev nD) : (V m c main_v7 : S1x768.Idx → EReal)
    = shapeCast S1x768 (m ((c : Thread nD τ).loc main_arg6)) shapeCasts_S768_S1x768 := by
  dsimp only [V, hostOps0]; after_results <;> rfl
theorem V_bv (c : Dev nD) : (V m c main_v8 : S1x768.Idx → EReal)
    = shapeCast S1x768 (m ((c : Thread nD τ).loc main_arg8)) shapeCasts_S768_S1x768 := by
  dsimp only [V, hostOps0]; after_results <;> rfl
/-- The mask, each bit widened to a 32-bit word. -/
theorem V_mask (c : Dev nD) : (V m c main_v9 : S8x2048x2048.Idx → BitVec 32)
    = extui 32 (m ((c : Thread nD τ).loc main_arg2)) natLt_1_32 := by
  dsimp only [V, hostOps0]; after_results <;> rfl

/-! ## The windows' blocks at a point -/

/-- The query tile: rows `256 (t % 8) …` of batch `t / 8`. -/
theorem queries_block (c : Dev nD) (t : Fin cfg0.N) (r : Fin 256) (d : Fin 768) :
    iblk m c 0 t (ix3 0 r d) = m ((c : Thread nD τ).loc main_arg0) (ix3 (batch t) (tileRow t r) d) := by
  obtain ⟨⟨e0, e1, e2⟩, -⟩ := index_facts t
  show V m c main_arg0 (((cfg0.win 0).blk t).view.emb (ix3 0 r d)) = _
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 768 + 1 * d.val = d.val; omega

/-- The values block: the whole batch `t / 8`. -/
theorem values_block (c : Dev nD) (t : Fin cfg0.N) (l : Fin 2048) (d : Fin 768) :
    iblk m c 1 t (ix3 0 l d) = m ((c : Thread nD τ).loc main_arg1) (ix3 (batch t) l d) := by
  obtain ⟨-, ⟨e0, e1, e2⟩, -⟩ := index_facts t
  show V m c main_arg1 (((cfg0.win 1).blk t).view.emb (ix3 0 l d)) = _
  rw [V_main_arg1]
  refine congrArg _ (funext fun a => Fin.ext ?_)
  match a with
  | ⟨0, _⟩ => show win0_1.index t (0 : Fin 3) * 1 + 1 * 0 = t.val / 8; omega
  | ⟨1, _⟩ => show win0_1.index t (1 : Fin 3) * 2048 + 1 * l.val = l.val; omega
  | ⟨2, _⟩ => show win0_1.index t (2 : Fin 3) * 768 + 1 * d.val = d.val; omega

/-- The mask tile: the same rows as the query tile, each bit a word. -/
theorem mask_block (c : Dev nD) (t : Fin cfg0.N) (r : Fin 256) (j : Fin 2048) :
    iblk m c 8 t (ix3 0 r j) = (m ((c : Thread nD τ).loc main_arg2) (ix3 (batch t) (tileRow t r) j)).setWidth 32 := by
  obtain ⟨-, -, -, -, -, -, -, -, ⟨e0, e1, e2⟩, -⟩ := index_facts t
  show V m c main_v9 (((cfg0.win 8).blk t).view.emb (ix3 0 r j)) = _
  rw [V_mask]
  show (m ((c : Thread nD τ).loc main_arg2) (((cfg0.win 8).blk t).view.emb (ix3 0 r j))).setWidth 32 = _
  refine congrArg (fun i => (m ((c : Thread nD τ).loc main_arg2) i).setWidth 32) (funext fun a => Fin.ext ?_)
  match a with
  | ⟨0, _⟩ => show win0_8.index t (0 : Fin 3) * 1 + 1 * 0 = t.val / 8; omega
  | ⟨1, _⟩ => show win0_8.index t (1 : Fin 3) * 256 + 1 * r.val = 256 * (t.val % 8) + r.val; omega
  | ⟨2, _⟩ => show win0_8.index t (2 : Fin 3) * 2048 + 1 * j.val = j.val; omega

/-- The resident query weight, transposed. -/
theorem WqT_block (c : Dev nD) (t : Fin cfg0.N) (d e : Fin 768) :
    iblk m c 2 t (ix2 d e) = m ((c : Thread nD τ).loc main_arg3) (ix2 e d) := by
  obtain ⟨-, -, w2, w3, w4, w5, w6, w7, -, -⟩ := index_facts t
  show V m c main_v1 (((cfg0.win 2).blk t).view.emb (ix2 d e)) = _
  rw [V_WqT]
  show transpose S768x768 [1, 0] (m ((c : Thread nD τ).loc main_arg3)) transposes_S768x768_S768x768_1_0 (((cfg0.win 2).blk t).view.emb (ix2 d e)) = _
  refine transpose_apply [1, 0] (m ((c : Thread nD τ).loc main_arg3)) _ _ (ix2 e d) (fun b => ?_)
  match b with
  | ⟨0, _⟩ => show d.val = win0_2.index t (0 : Fin 2) * 768 + 1 * d.val; omega
  | ⟨1, _⟩ => show e.val = win0_2.index t (1 : Fin 2) * 768 + 1 * e.val; omega

/-- The resident key weight, transposed. -/
theorem WkT_block (c : Dev nD) (t : Fin cfg0.N) (d e : Fin 768) :
    iblk m c 4 t (ix2 d e) = m ((c : Thread nD τ).loc main_arg5) (ix2 e d) := by
  obtain ⟨-, -, w2, w3, w4, w5, w6, w7, -, -⟩ := index_facts t
  show V m c main_v3 (((cfg0.win 4).blk t).view.emb (ix2 d e)) = _
  rw [V_WkT]
  show transpose S768x768 [1, 0] (m ((c : Thread nD τ).loc main_arg5)) transposes_S768x768_S768x768_1_0 (((cfg0.win 4).blk t).view.emb (ix2 d e)) = _
  refine transpose_apply [1, 0] (m ((c : Thread nD τ).loc main_arg5)) _ _ (ix2 e d) (fun b => ?_)
  match b with
  | ⟨0, _⟩ => show d.val = win0_4.index t (0 : Fin 2) * 768 + 1 * d.val; omega
  | ⟨1, _⟩ => show e.val = win0_4.index t (1 : Fin 2) * 768 + 1 * e.val; omega

/-- The resident value weight, transposed. -/
theorem WvT_block (c : Dev nD) (t : Fin cfg0.N) (d e : Fin 768) :
    iblk m c 6 t (ix2 d e) = m ((c : Thread nD τ).loc main_arg7) (ix2 e d) := by
  obtain ⟨-, -, w2, w3, w4, w5, w6, w7, -, -⟩ := index_facts t
  show V m c main_v5 (((cfg0.win 6).blk t).view.emb (ix2 d e)) = _
  rw [V_WvT]
  show transpose S768x768 [1, 0] (m ((c : Thread nD τ).loc main_arg7)) transposes_S768x768_S768x768_1_0 (((cfg0.win 6).blk t).view.emb (ix2 d e)) = _
  refine transpose_apply [1, 0] (m ((c : Thread nD τ).loc main_arg7)) _ _ (ix2 e d) (fun b => ?_)
  match b with
  | ⟨0, _⟩ => show d.val = win0_6.index t (0 : Fin 2) * 768 + 1 * d.val; omega
  | ⟨1, _⟩ => show e.val = win0_6.index t (1 : Fin 2) * 768 + 1 * e.val; omega

/-- The query bias as one row. -/
theorem bq_block (c : Dev nD) (t : Fin cfg0.N) (e : Fin 768) :
    iblk m c 3 t (ix2 0 e) = m ((c : Thread nD τ).loc main_arg4) (ix1 e) := by
  obtain ⟨-, -, w2, w3, w4, w5, w6, w7, -, -⟩ := index_facts t
  show V m c main_v6 (((cfg0.win 3).blk t).view.emb (ix2 0 e)) = _
  rw [V_bq]
  refine (shapeCast_addUnit_apply ![768] (m ((c : Thread nD τ).loc main_arg4)) _ _).trans ?_
  refine congrArg _ (funext fun a => Fin.ext ?_)
  match a with
  | ⟨0, _⟩ => show win0_3.index t (1 : Fin 2) * 768 + 1 * e.val = e.val; omega

/-- The key bias as one row. -/
theorem bk_block (c : Dev nD) (t : Fin cfg0.N) (e : Fin 768) :
    iblk m c 5 t (ix2 0 e) = m ((c : Thread nD τ).loc main_arg6) (ix1 e) := by
  obtain ⟨-, -, w2, w3, w4, w5, w6, w7, -, -⟩ := index_facts t
  show V m c main_v7 (((cfg0.win 5).blk t).view.emb (ix2 0 e)) = _
  rw [V_bk]
  refine (shapeCast_addUnit_apply ![768] (m ((c : Thread nD τ).loc main_arg6)) _ _).trans ?_
  refine congrArg _ (funext fun a => Fin.ext ?_)
  match a with
  | ⟨0, _⟩ => show win0_5.index t (1 : Fin 2) * 768 + 1 * e.val = e.val; omega

/-- The value bias as one row. -/
theorem bv_block (c : Dev nD) (t : Fin cfg0.N) (e : Fin 768) :
    iblk m c 7 t (ix2 0 e) = m ((c : Thread nD τ).loc main_arg8) (ix1 e) := by
  obtain ⟨-, -, w2, w3, w4, w5, w6, w7, -, -⟩ := index_facts t
  show V m c main_v8 (((cfg0.win 7).blk t).view.emb (ix2 0 e)) = _
  rw [V_bv]
  refine (shapeCast_addUnit_apply ![768] (m ((c : Thread nD τ).loc main_arg8)) _ _).trans ?_
  refine congrArg _ (funext fun a => Fin.ext ?_)
  match a with
  | ⟨0, _⟩ => show win0_7.index t (1 : Fin 2) * 768 + 1 * e.val = e.val; omega

end Cert.KernelIdeal.Windows

end
-- ==== Proof.Spec.lean ====
/-
  Sigmoid-gated attention over projected sequences, as ONE function of the argument arrays, over the
  extended reals.

  For a batch `b`, a position `l` and a feature `e`:
    * a linear layer is `lin x W β b l e = (∑ d, x[b,l,d] · W[e,d]) + β[e]`  (the layer `x Wᵀ + β`);
    * the value projection is `lin values Wv bv`, the query projection `lin queries Wq bq`, and the key
      projection is the linear layer `(Wk, bk)` applied to the value projection (not to `values`);
    * the score of query `i` against key `j` is `∑ e, q[b,i,e] · k[b,j,e]`, replaced by the fill value
      `-1e9` (its binary32 word, the same on both sides) where the mask is off;
    * the gate is the logistic function of that, and the result is `∑ j, gate[b,i,j] · v[b,j,d]`.
  No sum is re-associated and no product is commuted against the two programs, so nothing here needs
  the inputs to be finite.
-/
import Idealize.ShloMosaic.PureOps.Ideal
import Idealize.ShloMosaic.Lib.ValueIdx

noncomputable section

namespace Cert.Attn

open Idealize.ShloMosaic Idealize.ShloMosaic.ValueIdx

/-- A batch of sequences `[8, 2048, 768]`, a square weight `[768, 768]`, a bias `[768]`, a mask `[8, 2048, 2048]`. -/
abbrev Seq : Type := (⟨3, ![8, 2048, 768]⟩ : Shape).Idx → EReal
abbrev Mat : Type := (⟨2, ![768, 768]⟩ : Shape).Idx → EReal
abbrev Bias : Type := (⟨1, ![768]⟩ : Shape).Idx → EReal
abbrev Mask : Type := (⟨3, ![8, 2048, 2048]⟩ : Shape).Idx → BitVec 1

/-- The fill value of a masked-off score: the binary32 word of `-1e9`. -/
abbrev fill : EReal := Ideal.ofBits .f32 0xCE6E6B28#32

/-- The linear layer `x Wᵀ + β` at batch `b`, position `l`, feature `e`. -/
def lin (x : Seq) (W : Mat) (β : Bias) (b : Fin 8) (l : Fin 2048) (e : Fin 768) : EReal :=
  (∑ d : Fin 768, x (ix3 b l d) * W (ix2 e d)) + β (ix1 e)

/-- The key projection: the layer `(Wk, bk)` of the VALUE projection. -/
def key (v : Seq) (Wv : Mat) (bv : Bias) (Wk : Mat) (bk : Bias) (b : Fin 8) (l : Fin 2048) (e : Fin 768) : EReal :=
  (∑ d : Fin 768, lin v Wv bv b l d * Wk (ix2 e d)) + bk (ix1 e)

/-- The score of query position `i` against key position `j`. -/
def score (q v : Seq) (Wq : Mat) (bq : Bias) (Wk : Mat) (bk : Bias) (Wv : Mat) (bv : Bias)
    (b : Fin 8) (i j : Fin 2048) : EReal :=
  ∑ e : Fin 768, lin q Wq bq b i e * key v Wv bv Wk bk b j e

/-- The gate: the logistic function of the masked score. -/
def gate (q v : Seq) (mask : Mask) (Wq : Mat) (bq : Bias) (Wk : Mat) (bk : Bias) (Wv : Mat) (bv : Bias)
    (b : Fin 8) (i j : Fin 2048) : EReal :=
  Ideal.logistic (Scalar.select (mask (ix3 b i j)) (score q v Wq bq Wk bk Wv bv b i j) fill)

/-- The layer's result: the gated sum of the value projections. -/
def att (q v : Seq) (mask : Mask) (Wq : Mat) (bq : Bias) (Wk : Mat) (bk : Bias) (Wv : Mat) (bv : Bias) : Seq :=
  fun i => ∑ j : Fin 2048, gate q v mask Wq bq Wk bk Wv bv (i 0) (i 1) j * lin v Wv bv (i 0) j (i 2)

end Cert.Attn

end
-- ==== Proof.Bridge.lean ====
/-
  From blocks to the arrays: the body's values are the layer's.

  Stated over variables: whenever a values block, a transposed weight and a bias row agree with a
  batch of the argument arrays (`x (0, l, d) = values (b, l, d)`, `Wᵀ (d, e) = W (e, d)`, `row (0, e) = β (e)`),
  the scratch contents `valueRows` / `keyRows` are the value and key projections of that batch, and the
  output block `gated` over them, at row `r` of the query tile, is the layer's result at that row of the
  batch. A mask bit widened to a word is nonzero exactly when the bit is one (`widened_ne_zero`).
-/
import proofs.«117325_j42880953483476_2_alg».proof.Proof.Ops
import proofs.«117325_j42880953483476_2_alg».proof.Proof.Spec

noncomputable section

namespace Cert.KernelIdeal.Ops

open Cert.KernelIdeal Cert.Attn Idealize.ShloMosaic Idealize.ShloMosaic.ValueIdx

/-- A bit widened to 32 bits differs from zero exactly when it is one. -/
theorem widened_ne_zero : ∀ b : BitVec 1, IntOp.cmpi .ne (b.setWidth 32) 0#32 = b := by decide

/-- The value scratch of a batch is the batch's value projection. -/
theorem valueRows_eq (x : Vec Ideal S1x2048x768 .f32) (WT : FVec Ideal S768x768 .bf16) (row : FVec Ideal S1x768 .f32)
    (values : Seq) (Wv : Mat) (bv : Bias) (b : Fin 8)
    (hx : ∀ l d, x (ix3 0 l d) = values (ix3 b l d)) (hW : ∀ d e, WT (ix2 d e) = Wv (ix2 e d))
    (hβ : ∀ e, row (ix2 0 e) = bv (ix1 e)) :
    valueRows x WT row = fun j => lin values Wv bv b (j 0) (j 1) := by
  funext j
  obtain ⟨l, e, rfl⟩ : ∃ (l : Fin 2048) (e : Fin 768), j = ix2 l e := ⟨j 0, j 1, eq_ix2 j⟩
  show (∑ d : Fin 768, x (ix3 0 l d) * WT (ix2 d e)) + row (ix2 0 e)
      = (∑ d : Fin 768, values (ix3 b l d) * Wv (ix2 e d)) + bv (ix1 e)
  rw [hβ]
  refine congrArg (· + bv (ix1 e)) (Finset.sum_congr rfl fun d _ => ?_)
  rw [hx, hW]

/-- The key scratch of a batch is the batch's key projection. -/
theorem keyRows_eq (x : Vec Ideal S1x2048x768 .f32) (WT : FVec Ideal S768x768 .bf16) (row : FVec Ideal S1x768 .f32)
    (WkT : FVec Ideal S768x768 .bf16) (rowk : FVec Ideal S1x768 .f32)
    (values : Seq) (Wv : Mat) (bv : Bias) (Wk : Mat) (bk : Bias) (b : Fin 8)
    (hx : ∀ l d, x (ix3 0 l d) = values (ix3 b l d)) (hW : ∀ d e, WT (ix2 d e) = Wv (ix2 e d))
    (hβ : ∀ e, row (ix2 0 e) = bv (ix1 e)) (hWk : ∀ d e, WkT (ix2 d e) = Wk (ix2 e d))
    (hβk : ∀ e, rowk (ix2 0 e) = bk (ix1 e)) :
    keyRows x WT row WkT rowk = fun j => key values Wv bv Wk bk b (j 0) (j 1) := by
  funext j
  obtain ⟨l, e, rfl⟩ : ∃ (l : Fin 2048) (e : Fin 768), j = ix2 l e := ⟨j 0, j 1, eq_ix2 j⟩
  show (∑ d : Fin 768, valueRows x WT row (ix2 l d) * WkT (ix2 d e)) + rowk (ix2 0 e)
      = (∑ d : Fin 768, lin values Wv bv b l d * Wk (ix2 e d)) + bk (ix1 e)
  rw [hβk, valueRows_eq x WT row values Wv bv b hx hW hβ]
  refine congrArg (· + bk (ix1 e)) (Finset.sum_congr rfl fun d _ => ?_)
  rw [hWk]

/-- The output block of a query tile, over the batch's key and value projections, is the layer's result
    on the tile's rows. -/
theorem gated_eq (x : Vec Ideal S1x256x768 .f32) (WT : FVec Ideal S768x768 .bf16) (row : FVec Ideal S1x768 .f32)
    (mk : Vec Ideal S1x256x2048 .i32) (q v : Seq) (mask : Mask) (Wq : Mat) (bq : Bias) (Wk : Mat) (bk : Bias)
    (Wv : Mat) (bv : Bias) (b : Fin 8) (rowOf : Fin 256 → Fin 2048)
    (hx : ∀ r d, x (ix3 0 r d) = q (ix3 b (rowOf r) d)) (hW : ∀ d e, WT (ix2 d e) = Wq (ix2 e d))
    (hβ : ∀ e, row (ix2 0 e) = bq (ix1 e))
    (hm : ∀ r j, mk (ix3 0 r j) = (mask (ix3 b (rowOf r) j)).setWidth 32) (r : Fin 256) (d : Fin 768) :
    gated (layer (rowsOf x) WT row) mk (fun j => key v Wv bv Wk bk b (j 0) (j 1)) (fun j => lin v Wv bv b (j 0) (j 1)) (ix3 0 r d)
      = att q v mask Wq bq Wk bk Wv bv (ix3 b (rowOf r) d) := by
  rw [gated_apply]
  unfold att gate score
  refine Finset.sum_congr rfl fun j _ => ?_
  rw [hm, widened_ne_zero]
  simp only [layer_apply, rowsOf_apply, hx, hW, hβ]
  rfl

end Cert.KernelIdeal.Ops

end
-- ==== Proof.GridRun.lean ====
/-
  The run of the grid, read as values: the result array is the attention layer of the arguments.

  The two scratch buffers are written at the first tile of a batch and only read at the other seven, so
  by induction along the grid (`scratch_after`) they hold, after every point `t`, the key and value
  projections of batch `t / 8`. Every point therefore writes back the layer's result on its 256 query
  rows of its batch (`block_written`), the 64 blocks tile the `[8, 2048, 768]` result (`covered`), and the
  result array ends at the layer of the arguments (`result_array`, `run`).
-/
import proofs.«117325_j42880953483476_2_alg».proof.Proof.Gen.KernelIdeal.Value
import proofs.«117325_j42880953483476_2_alg».proof.Proof.Pieces
import proofs.«117325_j42880953483476_2_alg».proof.Proof.Windows
import proofs.«117325_j42880953483476_2_alg».proof.Proof.Bridge

noncomputable section

namespace Cert.KernelIdeal.GridRun

open Cert.KernelIdeal Cert.KernelIdeal.Gen Cert.KernelIdeal.Ops Cert.KernelIdeal.Windows Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's result on core `c`'s arguments. -/
def result (c : Dev nD) : Buf (Elt Ideal) ((c : Thread nD τ).loc main_v10) :=
  att (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The key and value projections of batch `b`, as scratch contents. -/
def keysOf (c : Dev nD) (b : Fin 8) : Vec Ideal S2048x768 .bf16 :=
  fun j => key (m ((c : Thread nD τ).loc main_arg1)) (m ((c : Thread nD τ).loc main_arg7)) (m ((c : Thread nD τ).loc main_arg8)) (m ((c : Thread nD τ).loc main_arg5)) (m ((c : Thread nD τ).loc main_arg6)) b (j 0) (j 1)
def valuesOf (c : Dev nD) (b : Fin 8) : Vec Ideal S2048x768 .bf16 :=
  fun j => lin (m ((c : Thread nD τ).loc main_arg1)) (m ((c : Thread nD τ).loc main_arg7)) (m ((c : Thread nD τ).loc main_arg8)) b (j 0) (j 1)

theorem lt64 {n : ℕ} (h : n < cfg0.N) : n < 64 := lt_of_lt_of_eq h N64

/-- The batch of grid position `n`. -/
abbrev batchOf (n : ℕ) (h : n < cfg0.N) : Fin 8 := ⟨n / 8, by have := lt64 h; omega⟩

/-! ## The scratch buffers along the grid -/

/-- At the first tile of a batch the body leaves the batch's projections in the scratch buffers. -/
theorem scratch_first (c : Dev nD) (t : Fin cfg0.N) (h0 : t.val % 8 = 0) :
    (outsAt0 m c t.val t.isLt).2.1 = keysOf m c (batch t) ∧ (outsAt0 m c t.val t.isLt).2.2 = valuesOf m c (batch t) := by
  rw [outsAt0_A m c t h0]
  dsimp only
  exact ⟨(key_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)).trans
      (keyRows_eq (iblk m c 1 t) (iblk m c 6 t) (iblk m c 7 t) (iblk m c 4 t) (iblk m c 5 t)
        (m ((c : Thread nD τ).loc main_arg1)) (m ((c : Thread nD τ).loc main_arg7)) (m ((c : Thread nD τ).loc main_arg8)) (m ((c : Thread nD τ).loc main_arg5)) (m ((c : Thread nD τ).loc main_arg6)) (batch t)
        (values_block m c t) (WvT_block m c t) (bv_block m c t) (WkT_block m c t) (bk_block m c t)),
    (value_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)).trans
      (valueRows_eq (iblk m c 1 t) (iblk m c 6 t) (iblk m c 7 t)
        (m ((c : Thread nD τ).loc main_arg1)) (m ((c : Thread nD τ).loc main_arg7)) (m ((c : Thread nD τ).loc main_arg8)) (batch t)
        (values_block m c t) (WvT_block m c t) (bv_block m c t))⟩

/-- After every point the scratch buffers hold the projections of the point's batch. -/
theorem scratch_after (c : Dev nD) : ∀ (n : ℕ) (h : n < cfg0.N),
    (outsAt0 m c n h).2.1 = keysOf m c (batchOf n h) ∧ (outsAt0 m c n h).2.2 = valuesOf m c (batchOf n h)
  | 0, h => scratch_first m c ⟨0, h⟩ rfl
  | n + 1, h => by
    by_cases h0 : (n + 1) % 8 = 0
    · exact scratch_first m c ⟨n + 1, h⟩ h0
    · have ih := scratch_after c n (Nat.lt_of_succ_lt h)
      have hb : batchOf n (Nat.lt_of_succ_lt h) = batchOf (n + 1) h := Fin.ext (by show n / 8 = (n + 1) / 8; omega)
      rw [outsAt0_B m c ⟨n + 1, h⟩ h0]
      dsimp only
      show (outsAt0 m c n _).2.1 = _ ∧ (outsAt0 m c n _).2.2 = _
      rw [← hb]
      exact ih

/-! ## What a point writes back -/

/-- The output's staging buffer after point `t`: `gated` of the point's blocks over its batch's projections. -/
theorem out_after (c : Dev nD) (t : Fin cfg0.N) :
    (outsAt0 m c t.val t.isLt).1
      = gated (layer (rowsOf (iblk m c 0 t)) (iblk m c 2 t) (iblk m c 3 t)) (iblk m c 8 t)
          (keysOf m c (batch t)) (valuesOf m c (batch t)) := by
  by_cases h0 : t.val % 8 = 0
  · have hs := scratch_first m c t h0
    rw [outsAt0_A m c t h0] at hs ⊢
    dsimp only at hs ⊢
    rw [out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), hs.1, hs.2]
  · have hpos : 0 < t.val := Nat.pos_of_ne_zero (fun h => h0 (by rw [h]))
    have hlt : t.val - 1 < cfg0.N := Nat.lt_of_le_of_lt (Nat.sub_le _ _) t.isLt
    have hs := scratch_after m c (t.val - 1) hlt
    have hb : batchOf (t.val - 1) hlt = batch t := Fin.ext (by show (t.val - 1) / 8 = t.val / 8; omega)
    rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) hlt).2.1 (outsAt0 m c (t.val - 1) hlt).2.2, hs.1, hs.2, hb]

/-- Two blocks of 256 rows agree when they agree at every row and feature. -/
theorem block_ext (f g : S1x256x768.Idx → EReal) (h : ∀ (r : Fin 256) (d : Fin 768), f (ix3 0 r d) = g (ix3 0 r d)) : f = g := by
  funext y
  have hy : y = ix3 0 (y 1) (y 2) := funext fun a => by
    match a with
    | ⟨0, h⟩ => exact Fin.ext (by have h1 : (y ⟨0, h⟩).val < 1 := (y ⟨0, h⟩).isLt; show (y ⟨0, h⟩).val = 0; omega)
    | ⟨1, _⟩ => rfl
    | ⟨2, _⟩ => rfl
  rw [hy]
  exact h _ _

/-- WHAT POINT `t` WRITES BACK is block `t` of the layer's result. -/
theorem block_written (c : Dev nD) (t : Fin cfg0.N) :
    (dats m 0 c).flushed 9 t = ((cfg0.win 9).blk t).view.read (Elt Ideal) (result m c) := by
  rw [Value.flushed9, out_after m c t]
  obtain ⟨-, -, -, -, -, -, -, -, -, ⟨e0, e1, e2⟩⟩ := index_facts t
  refine block_ext _ _ (fun r d => ?_)
  show gated (layer (rowsOf (iblk m c 0 t)) (iblk m c 2 t) (iblk m c 3 t)) (iblk m c 8 t)
      (keysOf m c (batch t)) (valuesOf m c (batch t)) (ix3 0 r d)
    = result m c (((cfg0.win 9).blk t).view.emb (ix3 0 r d))
  refine (gated_eq (iblk m c 0 t) (iblk m c 2 t) (iblk m c 3 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batch t) (tileRow t)
    (queries_block m c t) (WqT_block m c t) (bq_block m c t) (mask_block m c t) r d).trans ?_
  refine congrArg (result m c) (funext fun a => Fin.ext ?_)
  match a with
  | ⟨0, _⟩ => show t.val / 8 = win0_9.index t (0 : Fin 3) * 1 + 1 * 0; omega
  | ⟨1, _⟩ => show 256 * (t.val % 8) + r.val = win0_9.index t (1 : Fin 3) * 256 + 1 * r.val; omega
  | ⟨2, _⟩ => show d.val = win0_9.index t (2 : Fin 3) * 768 + 1 * d.val; omega

/-! ## The blocks tile the result -/

/-- Every index of the result is in the block of the point of its batch and its tile. -/
theorem covered (i : S8x2048x768.Idx) :
    ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 768 := (i 2).isLt
  have hN : 8 * (i 0).val + (i 1).val / 256 < cfg0.N := by rw [N64]; omega
  refine ⟨⟨8 * (i 0).val + (i 1).val / 256, hN⟩, flush0_9 _, ?_⟩
  obtain ⟨-, -, -, -, -, -, -, -, -, ⟨e0, e1, e2⟩⟩ := index_facts ⟨8 * (i 0).val + (i 1).val / 256, hN⟩
  show i ∈ ((View.whole main_v10).slice (win0_9.rect ⟨8 * (i 0).val + (i 1).val / 256, hN⟩)).set
  rw [View.set_slice_whole, Rect.mem_set_unit]
  intro a
  match a with
  | ⟨0, _⟩ =>
    show win0_9.index ⟨8 * (i 0).val + (i 1).val / 256, hN⟩ (0 : Fin 3) * 1 ≤ (i 0).val
      ∧ (i 0).val < win0_9.index ⟨8 * (i 0).val + (i 1).val / 256, hN⟩ (0 : Fin 3) * 1 + 1
    rw [e0]; dsimp only; omega
  | ⟨1, _⟩ =>
    show win0_9.index ⟨8 * (i 0).val + (i 1).val / 256, hN⟩ (1 : Fin 3) * 256 ≤ (i 1).val
      ∧ (i 1).val < win0_9.index ⟨8 * (i 0).val + (i 1).val / 256, hN⟩ (1 : Fin 3) * 256 + 256
    rw [e1]; dsimp only; omega
  | ⟨2, _⟩ =>
    show win0_9.index ⟨8 * (i 0).val + (i 1).val / 256, hN⟩ (2 : Fin 3) * 768 ≤ (i 2).val
      ∧ (i 2).val < win0_9.index ⟨8 * (i 0).val + (i 1).val / 256, hN⟩ (2 : Fin 3) * 768 + 768
    rw [e2]; omega

/-- THE RESULT ARRAY after the run is the layer's result. -/
theorem result_array (c : Dev nD) : (dats m 0 c).arrAt 9 cfg0.N = result m c :=
  (dats m 0 c).arrAt_eq_of_cover 9 (result m c) (fun t _ => block_written m c t) (covered)

/-! ## The run, read -/

/-- Every weakly fair execution of the idealized kernel program terminates with the result array at the
    layer of the arguments, and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_array m c), (h c).2⟩) (Value.run_blocks m ρ)

end Cert.KernelIdeal.GridRun

end
-- ==== Proof.RefAttn.lean ====
/-
  The reference program computes the attention layer.

  Read one operation at a time, the reference's result at an index is: the contraction of the gates with
  the value projection over the key positions; a gate is `1 / (1 + exp (-s))` of the masked score `s`,
  which on the extended reals is the logistic function by definition (the word `0x3F800000` is the
  number one); each projection is a contraction with a weight plus a broadcast bias. These are the
  terms of `Cert.Attn.att`, with the same operand order in every product, so the two agree term by term.
-/
import proofs.«117325_j42880953483476_2_alg».proof.Proof.Gen.ReferenceIdeal.Read
import proofs.«117325_j42880953483476_2_alg».proof.Proof.Spec

noncomputable section

namespace Cert.ReferenceIdeal.RefAttn

open Cert.ReferenceIdeal Cert.ReferenceIdeal.Read Cert.Attn Idealize.ShloMosaic Idealize.ShloMosaic.ValueIdx

/-- The binary32 word `0x3F800000` is the number one. -/
theorem one_word : Ideal.ofBits .f32 0x3F800000#32 = 1 := by
  simp [Ideal.ofBits, Ideal.ieee, -EReal.coe_mul]; norm_num

/-- A contraction with a weight plus a broadcast bias is a linear layer (the query and the value projection). -/
theorem query_proj (x : (⟨S8x2048x768, .f32⟩ : BufTy).Contents (Elt Ideal)) (W : (⟨S768x768, .f32⟩ : BufTy).Contents (Elt Ideal)) (β : (⟨S768, .f32⟩ : BufTy).Contents (Elt Ideal)) (k : S8x2048x768.Idx) :
    val_main_v3 (F := Ideal) x W β k = lin x W β (k 0) (k 1) (k 2) := by
  rw [val_main_v3_apply, val_main_v0_apply, val_main_v2_apply, val_main_v1_apply]
  unfold lin
  have e1 : ∀ d : Fin 768, lidx_main_v0 k d = ix3 (k 0) (k 1) d := fun d => funext fun a => by match a with | ⟨0, _⟩ => rfl | ⟨1, _⟩ => rfl | ⟨2, _⟩ => rfl
  have e2 : ∀ d : Fin 768, ridx_main_v0 k d = ix2 (k 2) d := fun d => funext fun a => by match a with | ⟨0, _⟩ => rfl | ⟨1, _⟩ => rfl
  have e3 : idx_main_v1 (idx_main_v2 k) = ix1 (k 2) := funext fun a => by match a with | ⟨0, _⟩ => rfl
  simp only [e1, e2, e3]
  rfl

theorem value_proj (x : (⟨S8x2048x768, .f32⟩ : BufTy).Contents (Elt Ideal)) (W : (⟨S768x768, .f32⟩ : BufTy).Contents (Elt Ideal)) (β : (⟨S768, .f32⟩ : BufTy).Contents (Elt Ideal)) (k : S8x2048x768.Idx) :
    val_main_v7 (F := Ideal) x W β k = lin x W β (k 0) (k 1) (k 2) := by
  rw [val_main_v7_apply, val_main_v4_apply, val_main_v6_apply, val_main_v5_apply]
  unfold lin
  have e1 : ∀ d : Fin 768, lidx_main_v4 k d = ix3 (k 0) (k 1) d := fun d => funext fun a => by match a with | ⟨0, _⟩ => rfl | ⟨1, _⟩ => rfl | ⟨2, _⟩ => rfl
  have e2 : ∀ d : Fin 768, ridx_main_v4 k d = ix2 (k 2) d := fun d => funext fun a => by match a with | ⟨0, _⟩ => rfl | ⟨1, _⟩ => rfl
  have e3 : idx_main_v5 (idx_main_v6 k) = ix1 (k 2) := funext fun a => by match a with | ⟨0, _⟩ => rfl
  simp only [e1, e2, e3]
  rfl

/-- The key projection: the key layer of the value projection. -/
theorem key_proj (x : (⟨S8x2048x768, .f32⟩ : BufTy).Contents (Elt Ideal)) (Wk : (⟨S768x768, .f32⟩ : BufTy).Contents (Elt Ideal)) (bk : (⟨S768, .f32⟩ : BufTy).Contents (Elt Ideal)) (Wv : (⟨S768x768, .f32⟩ : BufTy).Contents (Elt Ideal)) (bv : (⟨S768, .f32⟩ : BufTy).Contents (Elt Ideal)) (k : S8x2048x768.Idx) :
    val_main_v11 (F := Ideal) x Wk bk Wv bv k = key x Wv bv Wk bk (k 0) (k 1) (k 2) := by
  rw [val_main_v11_apply, val_main_v8_apply, val_main_v10_apply, val_main_v9_apply]
  unfold key
  have e2 : ∀ d : Fin 768, ridx_main_v8 k d = ix2 (k 2) d := fun d => funext fun a => by match a with | ⟨0, _⟩ => rfl | ⟨1, _⟩ => rfl
  have e3 : idx_main_v9 (idx_main_v10 k) = ix1 (k 2) := funext fun a => by match a with | ⟨0, _⟩ => rfl
  simp only [value_proj, e2, e3]
  rfl

/-- The masked score passed through `1 / (1 + exp (-·))` is the gate. -/
theorem gate_ref (x0 x1 : (⟨S8x2048x768, .f32⟩ : BufTy).Contents (Elt Ideal)) (x2 : (⟨S8x2048x2048, .i1⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (b : Fin 8) (i j : Fin 2048) :
    val_main_v19 (F := Ideal) x0 x1 x2 x3 x4 x5 x6 x7 x8 (ix3 b i j) = gate x0 x1 x2 x3 x4 x5 x6 x7 x8 b i j := by
  rw [val_main_v19_apply, val_main_v18_apply, val_main_cst_1_apply, val_main_v17_apply, val_main_v16_apply,
    val_main_cst_0_apply, val_main_v15_apply, val_main_v14_apply, val_main_v13_apply, val_main_v12_apply,
    val_main_call0_v0_apply, val_main_cst_apply]
  unfold gate score
  simp only [query_proj, key_proj, Ideal.ofBits_def, one_word]
  rfl

/-- THE REFERENCE'S RESULT is the attention layer of its arguments. -/
theorem reference_is_att (x0 x1 : (⟨S8x2048x768, .f32⟩ : BufTy).Contents (Elt Ideal)) (x2 : (⟨S8x2048x2048, .i1⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) :
    val_main_v20 (F := Ideal) x0 x1 x2 x3 x4 x5 x6 x7 x8 = att x0 x1 x2 x3 x4 x5 x6 x7 x8 := by
  funext i
  obtain ⟨b, q, d, rfl⟩ : ∃ (b : Fin 8) (q : Fin 2048) (d : Fin 768), i = ix3 b q d := ⟨i 0, i 1, i 2, eq_ix3 i⟩
  rw [val_main_v20_apply]
  unfold att
  refine Finset.sum_congr rfl fun j _ => ?_
  have e1 : lidx_main_v20 (ix3 b q d) j = ix3 b q j := funext fun a => by match a with | ⟨0, _⟩ => rfl | ⟨1, _⟩ => rfl | ⟨2, _⟩ => rfl
  have e2 : ridx_main_v20 (ix3 b q d) j = ix3 b j d := funext fun a => by match a with | ⟨0, _⟩ => rfl | ⟨1, _⟩ => rfl | ⟨2, _⟩ => rfl
  rw [e1, e2, gate_ref, value_proj]

end Cert.ReferenceIdeal.RefAttn

end
-- ==== Proof.lean ====
/-
  A fused sigmoid-gated attention layer against its plain reference: the five claims.

  The kernel projects a batch's `values` once (at the batch's first query tile) into two scratch buffers —
  the value projection, and the key projection OF the value projection — and at every tile projects the
  256 query rows, scores them against all 2048 key rows, masks with the fill value `-1e9`, applies the
  logistic function and sums against the value rows. The reference does the same on whole arrays, with
  `1 / (1 + exp (-s))` for the logistic function. On the extended reals both are the function
  `Cert.Attn.att` of the arguments:
    * the reference, read one operation at a time (`RefAttn.reference_is_att`);
    * the kernel, because the scratch buffers hold the batch's projections after every grid point and
      each point writes back the layer's result on its rows, the 64 blocks tiling the result
      (`GridRun.run`).
  Products keep their operand order and sums their index order on both sides, so the precondition (finite
  inputs) is not used. The three frames are the generated runs; the idealization rewrote nothing, so
  `preserves` is trivial.
-/
import proofs.«117325_j42880953483476_2_alg».proof.Defs
import proofs.«117325_j42880953483476_2_alg».proof.Proof.Gen.Kernel
import proofs.«117325_j42880953483476_2_alg».proof.Proof.Gen.Kernel.Skeleton
import proofs.«117325_j42880953483476_2_alg».proof.Proof.Gen.Kernel.Launch
import proofs.«117325_j42880953483476_2_alg».proof.Proof.Gen.Kernel.Points
import proofs.«117325_j42880953483476_2_alg».proof.Proof.Gen.Kernel.Frame
import proofs.«117325_j42880953483476_2_alg».proof.Proof.Gen.KernelIdeal
import proofs.«117325_j42880953483476_2_alg».proof.Proof.Gen.KernelIdeal.Skeleton
import proofs.«117325_j42880953483476_2_alg».proof.Proof.Gen.KernelIdeal.Launch
import proofs.«117325_j42880953483476_2_alg».proof.Proof.Gen.KernelIdeal.Points
import proofs.«117325_j42880953483476_2_alg».proof.Proof.Gen.KernelIdeal.Frame
import proofs.«117325_j42880953483476_2_alg».proof.Proof.Gen.ReferenceIdeal
import proofs.«117325_j42880953483476_2_alg».proof.Proof.Gen.Pre_finite_inputs
import proofs.«117325_j42880953483476_2_alg».proof.Proof.Gen.KernelIdeal.Value
import proofs.«117325_j42880953483476_2_alg».proof.Proof.Gen.ReferenceIdeal.Run
import proofs.«117325_j42880953483476_2_alg».proof.Proof.Gen.ReferenceIdeal.Read
import proofs.«117325_j42880953483476_2_alg».proof.Proof.GridRun
import proofs.«117325_j42880953483476_2_alg».proof.Proof.RefAttn
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the attention layer of the (agreeing) arguments in their result. -/
theorem algebraic : Cert.algebraic_KernelIdeal_ReferenceIdeal := by
  intro m ρ m' ρ' _ hagree
  refine ⟨fun c => Cert.KernelIdeal.GridRun.result m c, Cert.KernelIdeal.GridRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefAttn.reference_is_att]
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
